-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S256x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .bf16 = 32 ∨ (Rect.block (s := S4096x4096) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibClampCancel.lean ====
/-
  Two facts about the extended reals, stated generally.

  (1) A clamped value is a real number.  For real bounds `lo` and `hi` and ANY extended real `w` (an infinity
  included) the clamp `min hi (max lo w)` is neither `+∞` (it is at most `hi`) nor `−∞` (it is at least the smaller
  of the two bounds), so it is the image of a real number.

  (2) Adding back what was subtracted.  For a real `c` and ANY extended real `r`, `c + (r − c) = r`: on reals it is
  the ring identity, and an infinite `r` absorbs the real `c` on both steps.  (For an infinite `c` the identity
  fails: `+∞ + (r − ∞) = −∞`.)  Together: a function of a clamped value `v`, written `v + (f v − v)`, is `f v`.
-/
import Mathlib.Data.EReal.Operations

namespace Cert.LibClampCancel

/-- A clamp between two real bounds is a real number, whatever extended real is clamped. -/
theorem clamp_eq_coe (lo hi : ℝ) (w : EReal) : ∃ y : ℝ, min (hi : EReal) (max (lo : EReal) w) = (y : EReal) := by
  have h1 : min (hi : EReal) (max (lo : EReal) w) ≠ ⊤ :=
    ne_top_of_le_ne_top (EReal.coe_ne_top hi) (min_le_left _ _)
  have h2 : min (hi : EReal) (max (lo : EReal) w) ≠ ⊥ :=
    (lt_min (EReal.bot_lt_coe hi) (lt_of_lt_of_le (EReal.bot_lt_coe lo) (le_max_left _ _))).ne'
  exact ⟨_, (EReal.coe_toReal h1 h2).symm⟩

/-- For a real `c` and any extended real `r`: `c + (r − c) = r`. -/
theorem coe_add_sub_cancel (c : ℝ) (r : EReal) : (c : EReal) + (r - (c : EReal)) = r := by
  induction r using EReal.rec with
  | bot => rw [EReal.bot_sub, EReal.add_bot]
  | top => rw [EReal.top_sub_coe, EReal.coe_add_top]
  | coe r => rw [← EReal.coe_sub, ← EReal.coe_add]; exact congrArg _ (by ring)

/-- A function `f` of a clamped value `v`, written as `v + (f v − v)`, is `f v`. -/
theorem clamp_add_sub_cancel (lo hi : ℝ) (w : EReal) (f : EReal → EReal) :
    min (hi : EReal) (max (lo : EReal) w) + (f (min (hi : EReal) (max (lo : EReal) w)) - min (hi : EReal) (max (lo : EReal) w))
      = f (min (hi : EReal) (max (lo : EReal) w)) := by
  obtain ⟨y, hy⟩ := clamp_eq_coe lo hi w
  rw [hy]
  exact coe_add_sub_cancel y _

end Cert.LibClampCancel
-- ==== Proof.TernaryProduct.lean ====
/-
  The specification: the product of an [8192, 4096] matrix `A` with the TERNARIZED [4096, 4096] weights.

  A weight `w` is first clamped to the interval [−1, 1] and then rounded to the nearest integer (ties to even), which
  leaves one of −1, 0, 1:  `weight w = round (min 1 (max (−1) w))`.  Entry (r, c) of the result is the plain sum over
  the 4096 contraction indices `k` of `A (r, k) · weight (W (k, c))`, read on the extended reals.  Both programs are
  shown equal to this one function; the two bound literals are kept as the bit patterns both programs spell, and
  are evaluated only where their being REAL numbers is needed (`hi_eq`, `lo_eq`).
-/
import Idealize.ShloMosaic.PureOps.Ideal
import Idealize.ShloMosaic.Lib.ValueIdx

noncomputable section

open Idealize.ShloMosaic Idealize.ShloMosaic.TcCoe Idealize.SL.Sem

namespace Cert.Ternary
open ValueIdx

/-- The upper clamp bound, the pattern of `1.0`, is the real number 1. -/
theorem hi_eq : Ideal.ofBits .f32 0x3F800000#32 = ((1 : ℝ) : EReal) := by
  simp [Ideal.ofBits, Ideal.ieee, -EReal.coe_mul]; norm_num

/-- The lower clamp bound, the pattern of `-1.0`, is the real number −1. -/
theorem lo_eq : Ideal.ofBits .f32 0xBF800000#32 = ((-1 : ℝ) : EReal) := by
  simp [Ideal.ofBits, Ideal.ieee, -EReal.coe_mul]; norm_num

/-- A ternarized weight: clamp to [−1, 1], then round to the nearest integer, ties to even. -/
def weight (w : EReal) : EReal :=
  Ideal.liftRound Ideal.roundHalfEven (min (Ideal.ofBits .f32 0x3F800000#32) (max (Ideal.ofBits .f32 0xBF800000#32) w))

/-- Entry (r, c) of the product: the sum over the contraction index of `A (r, k) · weight (W (k, c))`. -/
def entry (A : (⟨2, ![8192, 4096]⟩ : Shape).Idx → EReal) (W : (⟨2, ![4096, 4096]⟩ : Shape).Idx → EReal)
    (r : Fin 8192) (c : Fin 4096) : EReal :=
  ∑ k : Fin 4096, A (ix2 r k) * weight (W (ix2 k c))

/-- The whole [8192, 4096] product, index by index. -/
def product (A : (⟨2, ![8192, 4096]⟩ : Shape).Idx → EReal) (W : (⟨2, ![4096, 4096]⟩ : Shape).Idx → EReal) :
    (⟨2, ![8192, 4096]⟩ : Shape).Idx → EReal :=
  fun i => entry A W ⟨(i 0).val, idx2_lt0 i⟩ ⟨(i 1).val, idx2_lt1 i⟩

end Cert.Ternary

end
-- ==== Proof.ReferenceValue.lean ====
/-
  The reference computes the specification.

  The reference forms the straight-through weights `v + (round v − v)` of the clamped weights `v = min 1 (max (−1) w)`
  and multiplies `A` by them with one whole `dot_general`.  A clamped value is a real number whatever `w` is, so adding
  back what was subtracted returns `round v` exactly (on the extended reals this cancellation needs `v` finite, and the
  clamp provides it); the `dot_general` at an index is the plain sum over the contraction index.  Hence the
  reference's result is `Ternary.product` of its two arguments.
-/
import proofs.«102142_j21182778703910_2_alg».proof.Proof.Gen.ReferenceIdeal.Read
import proofs.«102142_j21182778703910_2_alg».proof.Proof.LibClampCancel
import proofs.«102142_j21182778703910_2_alg».proof.Proof.TernaryProduct
import Idealize.ShloMosaic.PureOps.Ideal.Laws

noncomputable section

open Idealize.ShloMosaic Idealize.ShloMosaic.TcCoe Idealize.SL.Sem

namespace Cert.ReferenceIdeal.RefValue
open Cert.ReferenceIdeal Cert.Ternary ValueIdx

/-- The straight-through weight at an index is the ternarized weight: `v + (round v − v) = round v` for the clamped,
    hence real, `v`. -/
theorem weight_eq (x1 : (⟨S4096x4096, .f32⟩ : BufTy).Contents (Elt Ideal)) (j : S4096x4096.Idx) :
    Read.val_main_v3 (F := Ideal) x1 j = weight (x1 j) := by
  rw [Read.val_main_v3_apply, Read.val_main_v2_apply, Read.val_main_v1_apply, Read.val_main_v0_apply,
    Read.val_main_call0_v4_apply, Read.val_main_call0_v3_apply, Read.val_main_cst_0_apply,
    Read.val_main_call0_v2_apply, Read.val_main_call0_v1_apply, Read.val_main_call0_v0_apply, Read.val_main_cst_apply]
  simp only [Ideal.addf_def, Ideal.subf_def, Ideal.minimumf_def, Ideal.maximumf_def, Ideal.ofBits_def,
    Ideal.hostUnary_roundeven_def]
  unfold weight
  rw [hi_eq, lo_eq]
  exact Cert.LibClampCancel.clamp_add_sub_cancel (-1) 1 (x1 j) _

/-- The reference's result is the specification of its arguments: row `i 0` of `A` against column `i 1` of the
    ternarized weights, summed over the contraction index. -/
theorem result_eq (x0 : (⟨S8192x4096, .f32⟩ : BufTy).Contents (Elt Ideal)) (x1 : (⟨S4096x4096, .f32⟩ : BufTy).Contents (Elt Ideal)) :
    Read.val_main_v4 (F := Ideal) x0 x1 = product x0 x1 := by
  funext i
  rw [Read.val_main_v4_apply]
  unfold product entry
  refine Finset.sum_congr rfl fun k _ => ?_
  rw [weight_eq]
  have el : Read.lidx_main_v4 i k = ix2 (⟨(i 0).val, idx2_lt0 i⟩ : Fin 8192) k :=
    funext fun a => by match a with | ⟨0, _⟩ => rfl | ⟨1, _⟩ => rfl
  have er : Read.ridx_main_v4 i k = ix2 k (⟨(i 1).val, idx2_lt1 i⟩ : Fin 4096) :=
    funext fun a => by match a with | ⟨0, _⟩ => rfl | ⟨1, _⟩ => rfl
  rw [el, er]

end Cert.ReferenceIdeal.RefValue

end
-- ==== Proof.CaseValues.lean ====
/-
  What one grid point leaves behind, case by case, as values.

  The body keeps a [2048, 1024] accumulator.  At the first point of a run (k = 0) it stores the zero block into the
  accumulator; at every point it then stores `accumulator + (A-block · W-block)` back; at the last point of a run
  (k = 15) it copies the accumulator into the output block.  The body's run finds these stores as pieces; read back,
  the accumulator after a point is ONE term — the step payload `k0_pay2` of the A-block, of what the accumulator held
  (the zero payload `k0_pay1` at a first point, the previous contents otherwise) and of the W-block — and at a last
  point the output block is that same term.  Stated at every float instance; nothing here opens the arithmetic.
-/
import proofs.«102142_j21182778703910_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues
open Cert.KernelIdeal Cert.KernelIdeal.Gen
variable {F : FTy → Type} [FloatOps F]

theorem hz : (![0, 0] : Fin 2 → Nat) = fun _ => 0 := funext fun a => by fin_cases a <;> rfl

/-- A first point of a run (k = 0, not the last): the accumulator ends at the step over the ZERO block — the zero
    store is read back by the step's load of the accumulator. -/
theorem acc_first (c : Dev nD) (i : grid0.Coords) (a3 : Memref sig .tc .vmem S2048x256 .f32) (h3 : a3.IsWhole)
    (a4 : Memref sig .tc .vmem S256x1024 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x256 .f32) (x1 : Vec F S256x1024 .bf16) :
    sout0_A_0 c i a3 h3 a4 h4 a5 h5 a6 h6 hc0 hc1 x0 x1 = k0_pay2 x0 (k0_pay1 (F := F)) x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x256) hz,
    View.ld_unit_zero (S := S256x1024) hz]

/-- A middle point (neither first nor last): the accumulator ends at the step over what it held. -/
theorem acc_middle (c : Dev nD) (i : grid0.Coords) (a3 : Memref sig .tc .vmem S2048x256 .f32) (h3 : a3.IsWhole)
    (a4 : Memref sig .tc .vmem S256x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x256 .f32) (x1 : Vec F S256x1024 .bf16) (xs : Vec F S2048x1024 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x256) hz,
    View.ld_unit_zero (S := S256x1024) hz, View.ld_unit_zero (S := S2048x1024) hz]

/-- A last point of a run (k = 15): the accumulator ends at the step over what it held, -/
theorem acc_last (c : Dev nD) (i : grid0.Coords) (a3 : Memref sig .tc .vmem S2048x256 .f32) (h3 : a3.IsWhole)
    (a4 : Memref sig .tc .vmem S256x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x256 .f32) (x1 : Vec F S256x1024 .bf16) (xs : Vec F S2048x1024 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x256) hz,
    View.ld_unit_zero (S := S256x1024) hz, View.ld_unit_zero (S := S2048x1024) hz]

/-- … and the output block is the accumulator just stored: the same term. -/
theorem out_last (c : Dev nD) (i : grid0.Coords) (a3 : Memref sig .tc .vmem S2048x256 .f32) (h3 : a3.IsWhole)
    (a4 : Memref sig .tc .vmem S256x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x256 .f32) (x1 : Vec F S256x1024 .bf16) (xs : Vec F S2048x1024 .f32) :
    out0_C_2 c i a3 h3 a4 h4 a5 h5 a6 h6 hc0 hc1 x0 x1 xs = k0_pay2 x0 xs x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x256) hz,
    View.ld_unit_zero (S := S256x1024) hz, View.ld_unit_zero (S := S2048x1024) hz]

end Cert.KernelIdeal.CaseValues

end
-- ==== Proof.BlockProduct.lean ====
/-
  One step of the accumulation, read at an entry, on the extended reals.

  The reset payload is the zero block.  The step payload adds to the accumulator the matrix-unit product of a
  [2048, 256] block of `A` (rounded to bf16 on the way in, which changes nothing on the extended reals) with a
  [256, 1024] block of the weights, into a zero accumulator; at entry (p, q) that product is the plain sum over the
  256 contraction indices `k` of `x (p, k) · w (k, q)`.  The contraction index of the matrix unit's dimension numbers
  is identified with `Fin 256` and the two operand indices with (p, k) and (k, q).
-/
import proofs.«102142_j21182778703910_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.BlockProduct
open Cert.KernelIdeal Cert.KernelIdeal.Gen ValueIdx

/-- The reset stores zero at every entry. -/
theorem reset_apply (y : S2048x1024.Idx) : k0_pay1 (F := Ideal) y = 0 := by
  unfold k0_pay1
  simp only [shapeCast_self]
  exact Ideal.ofBits_zero_f32

/-- The left operand's row is the output's row. -/
theorem lhs_row (i : S2048x1024.Idx) (κ : dot_S2048x256_S256x1024_S2048x1024_1_0_0_1_n_n.contr.Idx) :
    (dot_S2048x256_S256x1024_S2048x1024_1_0_0_1_n_n.lhsIdx i κ 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl

/-- The right operand's column is the output's column. -/
theorem rhs_col (i : S2048x1024.Idx) (κ : dot_S2048x256_S256x1024_S2048x1024_1_0_0_1_n_n.contr.Idx) :
    (dot_S2048x256_S256x1024_S2048x1024_1_0_0_1_n_n.rhsIdx i κ 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The product of an `A`-block and a weight block at an entry: the sum over the block's 256 contraction indices. -/
def blockProd (x0 : Vec Ideal S2048x256 .f32) (x1 : Vec Ideal S256x1024 .bf16) : S2048x1024.Idx → EReal :=
  fun y => ∑ k : Fin 256, x0 (ix2 (⟨(y 0).val, idx2_lt0 y⟩ : Fin 2048) k) * x1 (ix2 k (⟨(y 1).val, idx2_lt1 y⟩ : Fin 1024))

/-- The block product at entry (p, q), over the coordinates themselves. -/
theorem blockProd_ix2 (x0 : Vec Ideal S2048x256 .f32) (x1 : Vec Ideal S256x1024 .bf16) (p : Fin 2048) (q : Fin 1024) :
    blockProd x0 x1 (ix2 p q) = ∑ k : Fin 256, x0 (ix2 p k) * x1 (ix2 k q) := rfl

/-- The step at entry (p, q): what the accumulator held there, plus the sum over `k` of `x (p, k) · w (k, q)`. -/
theorem step_ix2 (x0 : Vec Ideal S2048x256 .f32) (acc : Vec Ideal S2048x1024 .f32) (x1 : Vec Ideal S256x1024 .bf16)
    (p : Fin 2048) (q : Fin 1024) :
    k0_pay2 x0 acc x1 (ix2 p q) = acc (ix2 p q) + ∑ k : Fin 256, x0 (ix2 p k) * x1 (ix2 k q) := by
  unfold k0_pay2
  simp only [shapeCast_self]
  refine congrArg (acc (ix2 p q) + ·) ?_
  refine (Ideal.matmul_constant_zero_apply (φ₁ := .bf16) (φ₂ := .bf16) dot_S2048x256_S256x1024_S2048x1024_1_0_0_1_n_n none
    (truncf .bf16 x0 bitsLt_bf16_f32) x1 (ix2 p q)).trans ?_
  rw [← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p q)
      ((contrEquiv1 dot_S2048x256_S256x1024_S2048x1024_1_0_0_1_n_n 256 rfl rfl).symm k) = ix2 p k :=
    funext fun a => Fin.ext (by
      match a with
      | ⟨0, _⟩ => exact lhs_row _ _
      | ⟨1, _⟩ => exact (dot_S2048x256_S256x1024_S2048x1024_1_0_0_1_n_n.lhsIdx_val_of_single rfl _ _).trans hk)
  have er : dot_S2048x256_S256x1024_S2048x1024_1_0_0_1_n_n.rhsIdx (ix2 p q)
      ((contrEquiv1 dot_S2048x256_S256x1024_S2048x1024_1_0_0_1_n_n 256 rfl rfl).symm k) = ix2 k q :=
    funext fun a => Fin.ext (by
      match a with
      | ⟨0, _⟩ => exact (dot_S2048x256_S256x1024_S2048x1024_1_0_0_1_n_n.rhsIdx_val_of_single rfl _ _).trans hk
      | ⟨1, _⟩ => exact rhs_col _ _)
  rw [el, er]
  rfl

/-- The same at any entry `y` of the block. -/
theorem step_apply (x0 : Vec Ideal S2048x256 .f32) (acc : Vec Ideal S2048x1024 .f32) (x1 : Vec Ideal S256x1024 .bf16)
    (y : S2048x1024.Idx) : k0_pay2 x0 acc x1 y = acc y + blockProd x0 x1 y := by
  obtain ⟨p, q, rfl⟩ : ∃ (p : Fin 2048) (q : Fin 1024), y = ix2 p q := ⟨y 0, y 1, eq_ix2 y⟩
  exact step_ix2 x0 acc x1 p q

end Cert.KernelIdeal.BlockProduct

end
-- ==== Proof.AccumulatorFold.lean ====
/-
  The accumulator after any grid point, as a sum.

  The grid is 4 × 4 × 16 and its last axis `k` runs fastest, so the 256 points fall into 16-point runs: run number
  `t / 16` fixes the output block, and point `16·(t / 16) + s` is its step `k = s`.  At a run's first point the
  accumulator is reset to zero and takes the first block product; each later point of the run adds its own block
  product to what the point before left.  Reading each case's value at an entry on the extended reals turns the fold over the run
  into a finite sum: after point `t` the accumulator holds, at entry `y`, the sum over `s ≤ t % 16` of the block product
  of the blocks fetched at point `16·(t / 16) + s`.  (Extended-real addition is commutative and associative, so no
  finiteness is needed.)  At a run's last point the output block is the accumulator.
-/
import proofs.«102142_j21182778703910_2_alg».proof.Proof.Gen.KernelIdeal.Value
import proofs.«102142_j21182778703910_2_alg».proof.Proof.CaseValues
import proofs.«102142_j21182778703910_2_alg».proof.Proof.BlockProduct

noncomputable section

open Idealize.ShloMosaic Idealize.ShloMosaic.TcCoe Idealize.SL.Sem
open Idealize.ShloMosaic.Pipeline (Dat)

namespace Cert.KernelIdeal.AccumulatorFold
open Cert.KernelIdeal Cert.KernelIdeal.Gen ValueIdx Cert.KernelIdeal.CaseValues Cert.KernelIdeal.BlockProduct

section anyInstance
variable {F : FTy → Type} [FloatOps F]
variable (m : (ℓ : Loc nD τ sig) → Buf (Elt F) ℓ)

/-- At a run's first point the accumulator is the step over the zero block, whatever it held before. -/
theorem acc_at_first (c : Dev nD) (n : ℕ) (hb : n < cfg0.N) (h0 : n % 16 = 0) (acc : Vec F S2048x1024 .f32) :
    Value.scAt0_0 m c n hb acc = k0_pay2 (iblk m c 0 ⟨n, hb⟩) (k0_pay1 (F := F)) (iblk m c 1 ⟨n, hb⟩) := by
  have h1 : ¬n % 16 = 15 := by omega
  unfold Value.scAt0_0
  rw [dif_pos h0, dif_neg h1]
  exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))

/-- At every other point it is the step over what the point before left (a middle point and a run's last point alike). -/
theorem acc_at_later (c : Dev nD) (n : ℕ) (hb : n < cfg0.N) (h0 : ¬n % 16 = 0) (acc : Vec F S2048x1024 .f32) :
    Value.scAt0_0 m c n hb acc = k0_pay2 (iblk m c 0 ⟨n, hb⟩) acc (iblk m c 1 ⟨n, hb⟩) := by
  unfold Value.scAt0_0
  rw [dif_neg h0]
  by_cases h1 : n % 16 = 15
  · rw [dif_pos h1]
    exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc
  · rw [dif_neg h1]
    exact acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc

/-- At a run's last point the output block holds what the accumulator holds. -/
theorem out_is_acc (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end anyInstance

variable (m : (ℓ : Loc nD τ sig) → Buf (Elt Ideal) ℓ)

/-- What point `n` adds to the accumulator: the product of the two blocks fetched there (zero past the grid, where it is
    never used). -/
def addend (c : Dev nD) (n : ℕ) : S2048x1024.Idx → EReal :=
  fun y => if hb : n < cfg0.N then blockProd (iblk m c 0 ⟨n, hb⟩) (iblk m c 1 ⟨n, hb⟩) y else 0

/-- After point `t` the accumulator holds the sum of the addends of its run's points up to `t`. -/
theorem acc_eq_sum (c : Dev nD) (t : Fin cfg0.N) (y : S2048x1024.Idx) :
    (outsAt0 m c t.val t.isLt).2 y = ∑ s ∈ Finset.range (t.val % 16 + 1), addend m c (16 * (t.val / 16) + s) y := by
  rw [Value.soutsAt0_0_eq m c t]
  have hmod : t.val % 16 ≤ 15 := by omega
  refine (Pipeline.accAt_add_apply (fun n h => Value.scAt0_0 m c n h (VS0_0.read (Elt Ideal) VS0_0.junk)) (Value.scAt0_0 m c)
    (fun _ => 0) (addend m c) (16 * (t.val / 16)) 15 ?_ ?_ (t.val % 16) hmod _ y).trans (zero_add _)
  · intro h i
    show Value.scAt0_0 m c (16 * (t.val / 16)) h (VS0_0.read (Elt Ideal) VS0_0.junk) i = 0 + addend m c (16 * (t.val / 16)) i
    rw [acc_at_first m c _ h (by omega), step_apply, reset_apply]
    unfold addend
    rw [dif_pos h]
  · intro n h acc i hlo hhi
    rw [acc_at_later m c n h (by omega) acc, step_apply]
    unfold addend
    rw [dif_pos h]

end Cert.KernelIdeal.AccumulatorFold

end
-- ==== Proof.BlockReads.lean ====
/-
  The blocks the region fetches, as entries of the argument arrays.

  Point `t` of the 4 × 4 × 16 grid has coordinates (t / 64, t / 16 % 4, t % 16) = (i, j, k).  The `A`-window's block
  index there is (i, k), the weight window's (k, j), the output window's (i, j); an entry of a block sits at block
  index × block size + its coordinate inside the block.  `A` reaches the region as launched.  The weights reach it
  through the host operations before the region: clamp to [−1, 1], round to nearest even, change format (the identity
  on the extended reals) — entry by entry the ternarized weight of the launched array.
-/
import proofs.«102142_j21182778703910_2_alg».proof.Proof.Gen.KernelIdeal.Value
import proofs.«102142_j21182778703910_2_alg».proof.Proof.TernaryProduct
import Idealize.ShloMosaic.Lib.StableHlo.Run
import Idealize.ShloMosaic.Lib.ValueIdx

noncomputable section

open Idealize.ShloMosaic Idealize.ShloMosaic.TcCoe Idealize.SL.Sem

namespace Cert.KernelIdeal.BlockReads
open Cert.KernelIdeal Cert.KernelIdeal.Gen ValueIdx Cert.Ternary

variable (m : (ℓ : Loc nD τ sig) → Buf (Elt Ideal) ℓ)

/-- The three windows' block indices at every grid point, from the point's number. -/
theorem index_facts : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = t.val / 64 ∧ win0_2.index t (1 : Fin 2) = t.val / 16 % 4 :=
  (by decide +kernel : ∀ t : Fin grid0.N, _)

/-- The weight array as the region finds it is, entry by entry, the ternarized weight of the launched array. -/
theorem weights_entering (c : Dev nD) (j : S4096x4096.Idx) :
    (V m c main_v2 : S4096x4096.Idx → EReal) j = weight (m ((c : Thread nD τ).loc main_arg1) j) := by
  have e : (V m c main_v2 : S4096x4096.Idx → EReal) = truncf .bf16 (Host.roundeven (minimumf (broadcastInDim S4096x4096 ![] bcast_S_S4096x4096 (id (constant (F := Ideal) S_ .f32 0x3F800000#32))) (maximumf (broadcastInDim S4096x4096 ![] bcast_S_S4096x4096 (id (constant (F := Ideal) S_ .f32 0xBF800000#32))) (m ((c : Thread nD τ).loc main_arg1))))) bitsLt_bf16_f32 := by
    dsimp only [Gen.V]
    simp only [hostOps0, hostOps0_1, hostOps0_2, hostOps0_3, List.flatten_cons, List.flatten_nil, List.append_nil, List.cons_append, List.nil_append]
    after_results
    rfl
  rw [e]
  have hb : ∀ (y : (⟨S_, .f32⟩ : BufTy).Contents (Elt Ideal)),
      broadcastInDim S4096x4096 ![] bcast_S_S4096x4096 y j = y (fun a => a.elim0) :=
    fun y => broadcastInDim_apply _ bcast_S_S4096x4096 y j (fun a => a.elim0) (fun a => a.elim0)
  show Ideal.liftRound Ideal.roundHalfEven
    (min (broadcastInDim S4096x4096 ![] bcast_S_S4096x4096 (id (constant (F := Ideal) S_ .f32 0x3F800000#32)) j)
      (max (broadcastInDim S4096x4096 ![] bcast_S_S4096x4096 (id (constant (F := Ideal) S_ .f32 0xBF800000#32)) j)
        (m ((c : Thread nD τ).loc main_arg1) j))) = _
  rw [hb, hb]
  rfl

/-- Entry (p, k) of the `A`-block fetched at point `n` is entry (2048·(n / 64) + p, 256·(n % 16) + k) of `A`. -/
theorem a_read (c : Dev nD) (n : Fin cfg0.N) (p : Fin 2048) (k : Fin 256) (r : Fin 8192) (κ : Fin 4096)
    (hr : r.val = 2048 * (n.val / 64) + p.val) (hκ : κ.val = 256 * (n.val % 16) + k.val) :
    (iblk m c 0 n : Vec Ideal S2048x256 .f32) (ix2 p k) = m ((c : Thread nD τ).loc main_arg0) (ix2 r κ) := by
  obtain ⟨e0, e1, -⟩ := index_facts n
  unfold iblk
  rw [View.read_apply]
  show V m c main_arg0 _ = _
  rw [V_main_arg0]
  refine congrArg _ (funext fun a => Fin.ext ?_)
  match a with
  | ⟨0, _⟩ => show win0_0.index n (0 : Fin 2) * 2048 + 1 * p.val = r.val; rw [e0]; omega
  | ⟨1, _⟩ => show win0_0.index n (1 : Fin 2) * 256 + 1 * k.val = κ.val; rw [e1]; omega

/-- Entry (k, q) of the weight block fetched at point `n` is the ternarized weight at
    (256·(n % 16) + k, 1024·(n / 16 % 4) + q). -/
theorem w_read (c : Dev nD) (n : Fin cfg0.N) (k : Fin 256) (q : Fin 1024) (κ : Fin 4096) (col : Fin 4096)
    (hκ : κ.val = 256 * (n.val % 16) + k.val) (hcol : col.val = 1024 * (n.val / 16 % 4) + q.val) :
    (iblk m c 1 n : Vec Ideal S256x1024 .bf16) (ix2 k q) = weight (m ((c : Thread nD τ).loc main_arg1) (ix2 κ col)) := by
  obtain ⟨-, -, e0, e1, -⟩ := index_facts n
  unfold iblk
  rw [View.read_apply]
  show (V m c main_v2 : S4096x4096.Idx → EReal) _ = _
  rw [weights_entering]
  refine congrArg (fun j => weight (m ((c : Thread nD τ).loc main_arg1) j)) (funext fun a => Fin.ext ?_)
  match a with
  | ⟨0, _⟩ => show win0_1.index n (0 : Fin 2) * 256 + 1 * k.val = κ.val; rw [e0]; omega
  | ⟨1, _⟩ => show win0_1.index n (1 : Fin 2) * 1024 + 1 * q.val = col.val; rw [e1]; omega

end Cert.KernelIdeal.BlockReads

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.KernelValue.lean ====
/-
  The idealized kernel's result array is the specification.

  Output block (i, j) is written back once, at the last point of its 16-point run, and holds the accumulator there:
  the sum over the run's steps `s` of the product of `A`'s block (i, s) with the ternarized weights' block (s, j).  At
  entry (p, q) step `s` contributes the terms `256·s … 256·s + 255` of the contraction for row `2048·i + p` and column
  `1024·j + q`; sixteen consecutive blocks of 256 terms are the whole sum of 4096 (a regrouping of a finite sum, valid
  on the extended reals without any finiteness).  The 16 writing points' blocks tile the [8192, 4096] result, so the
  array after the run is `Ternary.product` of the launched arguments.
-/
import proofs.«102142_j21182778703910_2_alg».proof.Proof.AccumulatorFold
import proofs.«102142_j21182778703910_2_alg».proof.Proof.BlockReads
import proofs.«102142_j21182778703910_2_alg».proof.Proof.LibBlockSum
import proofs.«102142_j21182778703910_2_alg».proof.Proof.TernaryProduct

noncomputable section

open Idealize.ShloMosaic Idealize.ShloMosaic.TcCoe Idealize.SL.Sem
open Idealize.ShloMosaic.Pipeline (Dat)

namespace Cert.KernelIdeal.KernelValue
open Cert.KernelIdeal Cert.KernelIdeal.Gen ValueIdx Cert.Ternary Cert.KernelIdeal.BlockProduct Cert.KernelIdeal.AccumulatorFold Cert.KernelIdeal.BlockReads

variable (m : (ℓ : Loc nD τ sig) → Buf (Elt Ideal) ℓ) (ρ : Dev nD → PrngReg)

/-- What the result array is shown to hold: the ternary product of the two launched argument arrays. -/
abbrev result (c : Dev nD) : S8192x4096.Idx → EReal :=
  product (m ((c : Thread nD τ).loc main_arg0)) (m ((c : Thread nD τ).loc main_arg1))

/-- The contraction's term at a natural number `κ` (zero past 4096, where it is never used): `A (r, κ) · weight (W (κ, col))`. -/
def term (A : (⟨2, ![8192, 4096]⟩ : Shape).Idx → EReal) (W : (⟨2, ![4096, 4096]⟩ : Shape).Idx → EReal)
    (r : Fin 8192) (col : Fin 4096) (κ : ℕ) : EReal :=
  if h : κ < 4096 then A (ix2 r ⟨κ, h⟩) * weight (W (ix2 ⟨κ, h⟩ col)) else 0

/-- An entry of the product is the sum of its 16 · 256 terms. -/
theorem entry_eq_sum_term (A : (⟨2, ![8192, 4096]⟩ : Shape).Idx → EReal) (W : (⟨2, ![4096, 4096]⟩ : Shape).Idx → EReal)
    (r : Fin 8192) (col : Fin 4096) :
    entry A W r col = ∑ κ : Fin (16 * 256), term A W r col κ.val := by
  unfold entry
  show _ = ∑ κ : Fin 4096, term A W r col κ.val
  refine Finset.sum_congr rfl fun κ _ => ?_
  unfold term
  rw [dif_pos κ.isLt]

/-- A WHOLE RUN's sixteen addends at entry (p, q) of output block (i, j) add up to entry (2048·i + p, 1024·j + q) of
    the product: step `s` of the run contributes the 256 terms `256·s … 256·s + 255` of the contraction, and sixteen
    consecutive blocks of 256 terms are all 4096 of them. -/
theorem run_sum (c : Dev nD) (t : Fin cfg0.N) (p : Fin 2048) (q : Fin 1024) (r : Fin 8192) (col : Fin 4096)
    (hr : r.val = 2048 * (t.val / 64) + p.val) (hcol : col.val = 1024 * (t.val / 16 % 4) + q.val) :
    ∑ s ∈ Finset.range 16, addend m c (16 * (t.val / 16) + s) (ix2 p q)
      = entry (m ((c : Thread nD τ).loc main_arg0)) (m ((c : Thread nD τ).loc main_arg1)) r col := by
  have hN : cfg0.N = 256 := N_0
  have ht : t.val < 256 := lt_of_lt_of_eq t.isLt hN
  rw [entry_eq_sum_term, ← Cert.LibBlockSum.sum_blocks 16 256 (term (m ((c : Thread nD τ).loc main_arg0)) (m ((c : Thread nD τ).loc main_arg1)) r col)]
  refine Finset.sum_congr rfl fun s hs => ?_
  have hs' : s < 16 := Finset.mem_range.mp hs
  have hb : 16 * (t.val / 16) + s < cfg0.N := lt_of_lt_of_eq (show 16 * (t.val / 16) + s < 256 by omega) hN.symm
  unfold addend
  rw [dif_pos hb]
  refine (blockProd_ix2 (iblk m c 0 ⟨16 * (t.val / 16) + s, hb⟩) (iblk m c 1 ⟨16 * (t.val / 16) + s, hb⟩) p q).trans ?_
  refine Finset.sum_congr rfl fun k _ => ?_
  have hk : k.val < 256 := k.isLt
  have hκ : 256 * s + k.val < 4096 := by omega
  rw [a_read m c ⟨16 * (t.val / 16) + s, hb⟩ p k r ⟨256 * s + k.val, hκ⟩ (by rw [hr]; show _ = 2048 * ((16 * (t.val / 16) + s) / 64) + p.val; omega)
      (by show 256 * s + k.val = 256 * ((16 * (t.val / 16) + s) % 16) + k.val; omega),
    w_read m c ⟨16 * (t.val / 16) + s, hb⟩ k q ⟨256 * s + k.val, hκ⟩ col (by show 256 * s + k.val = 256 * ((16 * (t.val / 16) + s) % 16) + k.val; omega)
      (by rw [hcol]; show _ = 1024 * ((16 * (t.val / 16) + s) / 16 % 4) + q.val; omega)]
  unfold term
  rw [dif_pos hκ]

/-- So at a run's last point the output block holds, entry by entry, the product's entries of its block. -/
theorem block_value (c : Dev nD) (t : Fin cfg0.N) (h15 : t.val % 16 = 15) (y : S2048x1024.Idx) (r : Fin 8192) (col : Fin 4096)
    (hr : r.val = 2048 * (t.val / 64) + (y 0).val) (hcol : col.val = 1024 * (t.val / 16 % 4) + (y 1).val) :
    (outsAt0 m c t.val t.isLt).1 y = result m c (ix2 r col) := by
  rw [out_is_acc m c t h15, acc_eq_sum, h15]
  obtain ⟨p, q, rfl⟩ : ∃ (p : Fin 2048) (q : Fin 1024), y = ix2 p q := ⟨y 0, y 1, eq_ix2 y⟩
  exact run_sum m c t p q r col hr hcol

/-- What a writing point writes back is its block of the product. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have hN : cfg0.N = 256 := N_0
  have ht : t.val < 256 := lt_of_lt_of_eq t.isLt hN
  obtain ⟨-, -, -, -, e0, e1⟩ := index_facts t
  rw [Value.flushed2]
  funext j
  show (outsAt0 m c t.val t.isLt).1 j = result m c (((cfg0.win 2).blk t).view.emb j)
  have hj0 : (j 0).val < 2048 := (j 0).isLt
  have hj1 : (j 1).val < 1024 := (j 1).isLt
  refine (block_value m c t h15 j ⟨2048 * (t.val / 64) + (j 0).val, by omega⟩ ⟨1024 * (t.val / 16 % 4) + (j 1).val, by omega⟩ rfl rfl).trans ?_
  refine congrArg (result m c) (funext fun a => Fin.ext ?_)
  match a with
  | ⟨0, _⟩ => show 2048 * (t.val / 64) + (j 0).val = win0_2.index t (0 : Fin 2) * 2048 + 1 * (j 0).val; rw [e0]; omega
  | ⟨1, _⟩ => show 1024 * (t.val / 16 % 4) + (j 1).val = win0_2.index t (1 : Fin 2) * 1024 + 1 * (j 1).val; rw [e1]; omega

/-- An index of the result array lies in point `t`'s block iff each coordinate lies in the block's range on its axis. -/
theorem mem_blk (t : Fin cfg0.N) (i : S8192x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v3).slice (win0_2.rect t)).set ↔ _
  rw [View.set_slice_whole, Rect.mem_set_unit]
  exact Iff.rfl

/-- Every index of the result array lies in the block of a writing point: row block `i 0 / 2048`, column block
    `i 1 / 1024`, at the last step `k = 15` of that run. -/
theorem cover (i : S8192x4096.Idx) : ∃ t : Fin cfg0.N, (cfg0.win 2).flush t = true ∧ i ∈ ((cfg0.win 2).blk t).view.set := by
  have h0 : (i 0).val < 8192 := idx2_lt0 i
  have h1 : (i 1).val < 4096 := idx2_lt1 i
  have hN : cfg0.N = 256 := N_0
  have hlt : 64 * ((i 0).val / 2048) + 16 * ((i 1).val / 1024) + 15 < cfg0.N :=
    lt_of_lt_of_eq (show 64 * ((i 0).val / 2048) + 16 * ((i 1).val / 1024) + 15 < 256 by omega) hN.symm
  obtain ⟨-, -, -, -, e0, e1⟩ := index_facts ⟨_, hlt⟩
  refine ⟨⟨_, hlt⟩, (flush0_2 ⟨_, hlt⟩).mpr (by show (64 * ((i 0).val / 2048) + 16 * ((i 1).val / 1024) + 15) % 16 = 15; omega), ?_⟩
  rw [mem_blk]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e0]
    show (64 * ((i 0).val / 2048) + 16 * ((i 1).val / 1024) + 15) / 64 * 2048 ≤ (i 0).val ∧ (i 0).val < (64 * ((i 0).val / 2048) + 16 * ((i 1).val / 1024) + 15) / 64 * 2048 + 2048
    omega
  | ⟨1, _⟩ =>
    show win0_2.index ⟨_, hlt⟩ (1 : Fin 2) * 1024 ≤ (i 1).val ∧ (i 1).val < win0_2.index ⟨_, hlt⟩ (1 : Fin 2) * 1024 + 1024
    rw [e1]
    show (64 * ((i 0).val / 2048) + 16 * ((i 1).val / 1024) + 15) / 16 % 4 * 1024 ≤ (i 1).val ∧ (i 1).val < (64 * ((i 0).val / 2048) + 16 * ((i 1).val / 1024) + 15) / 16 % 4 * 1024 + 1024
    omega

/-- The result array after the run is the product. -/
theorem final (c : Dev nD) : (dats m 0 c).arrAt 2 cfg0.N = result m c :=
  (dats m 0 c).arrAt_eq_of_cover 2 (result m c) (flushed_eq m c) cover

/-- The idealized kernel's run: the result array ends at the product of the launched arguments, which are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.lean ====
/-
  A ternary dense layer: `A · round (clip (W, −1, 1))` for `A` of shape [8192, 4096] and `W` of shape [4096, 4096].

  The kernel ternarizes the weights on the host (clamp to [−1, 1], round to nearest even, change format) and multiplies
  block by block over a 4 × 4 × 16 grid, accumulating the sixteen [2048, 256] × [256, 1024] block products of an output
  block in a scratch accumulator (zeroed at the run's first step, copied to the output at its last).  The reference
  forms the straight-through weights `v + (round v − v)` of the clamped weights `v` and multiplies once.

  On the extended reals both are ONE function of the arguments, `Ternary.product` (Proof/TernaryProduct.lean):
  * the reference, because a clamped weight is a real number, so `v + (round v − v) = round v` exactly
    (Proof/LibClampCancel.lean, Proof/ReferenceValue.lean) — this is where finiteness matters, and the clamp itself
    supplies it, so the precondition on the inputs is never opened;
  * the kernel, because the accumulator after a run is the sum of the run's block products (Proof/CaseValues.lean,
    Proof/BlockProduct.lean, Proof/AccumulatorFold.lean), the blocks are the expected tiles of the arguments
    (Proof/BlockReads.lean), and sixteen consecutive blocks of 256 terms regroup into the whole contraction
    (Proof/LibBlockSum.lean, Proof/KernelValue.lean) — addition of extended reals is commutative and associative.
  The three frames are the generated frame runs; the idealization rewrote nothing, so `preserves` is trivial.
-/
import proofs.«102142_j21182778703910_2_alg».proof.Defs
import proofs.«102142_j21182778703910_2_alg».proof.Proof.Gen.Kernel
import proofs.«102142_j21182778703910_2_alg».proof.Proof.Gen.Kernel.Skeleton
import proofs.«102142_j21182778703910_2_alg».proof.Proof.Gen.Kernel.Launch
import proofs.«102142_j21182778703910_2_alg».proof.Proof.Gen.Kernel.Points
import proofs.«102142_j21182778703910_2_alg».proof.Proof.Gen.Kernel.Frame
import proofs.«102142_j21182778703910_2_alg».proof.Proof.Gen.KernelIdeal
import proofs.«102142_j21182778703910_2_alg».proof.Proof.Gen.KernelIdeal.Skeleton
import proofs.«102142_j21182778703910_2_alg».proof.Proof.Gen.KernelIdeal.Launch
import proofs.«102142_j21182778703910_2_alg».proof.Proof.Gen.KernelIdeal.Points
import proofs.«102142_j21182778703910_2_alg».proof.Proof.Gen.KernelIdeal.Frame
import proofs.«102142_j21182778703910_2_alg».proof.Proof.Gen.ReferenceIdeal
import proofs.«102142_j21182778703910_2_alg».proof.Proof.Gen.Pre_finite_inputs
import proofs.«102142_j21182778703910_2_alg».proof.Proof.Gen.KernelIdeal.Value
import proofs.«102142_j21182778703910_2_alg».proof.Proof.Gen.ReferenceIdeal.Run
import proofs.«102142_j21182778703910_2_alg».proof.Proof.Gen.ReferenceIdeal.Read
import proofs.«102142_j21182778703910_2_alg».proof.Proof.ReferenceValue
import proofs.«102142_j21182778703910_2_alg».proof.Proof.KernelValue
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the ternary product of the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
